-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x64x4096 : Shape := ⟨3, ![16, 64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x64x4096 : S_.BroadcastsInDim S16x64x4096 (![] : Fin 0 → Fin S16x64x4096.rank)
  reducesTo_S16x64x4096_S_d0_1_2 : S16x64x4096.ReducesTo [0, 1, 2] S_

variable [Facts]

def fn {F : FTy → Type} [FloatOps F] (main_arg0 : FVec F S8192x4096 .f32) (main_arg1 : FVec F S16x64x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x64x4096 .f32 := Host.absf main_arg1
  let main_cst_0 : FVec F S_ .f32 := constant S_ .f32 0x7F800000#32
  let main_v5 : FVec F S16x64x4096 .f32 := broadcastInDim S16x64x4096 ![] bcast_S_S16x64x4096 main_cst_0
  let main_v6 : IVec S16x64x4096 1 := cmpf .olt main_v4 main_v5
  let main_c_1 : IVec S_ 1 := constantI S_ 1 1#1
  let main_v7 : IVec S_ 1 := (fun x v => Host.reduce IntOp.andi x v reducesTo_S16x64x4096_S_d0_1_2 h_S_) main_v6 main_c_1
  let main_v8 : IVec S_ 1 := andi main_v3 main_v7
  main_v8
-- ==== Kernel.lean ====
abbrev S8192x4096 : Shape := ⟨2, ![8192, 4096]⟩
abbrev S16x64x4096 : Shape := ⟨3, ![16, 64, 4096]⟩
abbrev S4096x16x64 : Shape := ⟨3, ![4096, 16, 64]⟩
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x128 : Shape := ⟨2, ![1024, 128]⟩
abbrev S8192x128 : Shape := ⟨2, ![8192, 128]⟩
abbrev S1024x4096 : Shape := ⟨2, ![1024, 4096]⟩
abbrev S1024x1024 : Shape := ⟨2, ![1024, 1024]⟩
abbrev S8192x16 : Shape := ⟨2, ![8192, 16]⟩

abbrev nBuf : Space → Nat
  | .hbm => 35
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S16x64x4096, .f32⟩
  | .hbm, ⟨2, _⟩ => ⟨S4096x16x64, .f32⟩
  | .hbm, ⟨3, _⟩ => ⟨S4096x1024, .f32⟩
  | .hbm, ⟨4, _⟩ => ⟨S4096x1024, .bf16⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1x16, .i32⟩
  | .hbm, ⟨26, _⟩ => ⟨S1024x16, .i32⟩
  | .hbm, ⟨27, _⟩ => ⟨S1024x16, .i32⟩
  | .hbm, ⟨28, _⟩ => ⟨S1024x16, .i1⟩
  | .hbm, ⟨29, _⟩ => ⟨S1024x16, .f32⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S8192x128, .f32⟩
  | .hbm, ⟨34, _⟩ => ⟨S8192x16, .f32⟩
  | .local _ .vmem, ⟨0, _⟩ => ⟨S1024x4096, .f32⟩
  | .local _ .vmem, ⟨1, _⟩ => ⟨S1024x4096, .f32⟩
  | .local _ .vmem, ⟨2, _⟩ => ⟨S4096x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_c_0 : Ref sig .tc := ⟨.hbm, 30, rfl⟩
abbrev main_call2_v0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x64x4096_S4096x16x64_2_0_1 : S16x64x4096.Transposes [2, 0, 1] S4096x16x64
  shapeCasts_S4096x16x64_S4096x1024 : S4096x16x64.ShapeCasts S4096x1024
  bitsLt_bf16_f32 : FTy.bits .bf16 < FTy.bits .f32
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  pads_S1024x16_S1024x128_000_01120 : S1024x16.Pads (![0, 0] : Fin 2 → Nat) ![0, 112] ![0, 0] S1024x128
  h_S_ : 0 < S_.numel
  inb_S1024x4096_S1024x4096_0_0 : ∀ a, (![0, 0] : Fin 2 → Nat) a + S1024x4096.size a ≤ S1024x4096.size a
  h_S1024x4096 : 0 < S1024x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S8192x128_S8192x16_0_0 : S8192x128.Slices ![0, 0] S8192x16
  dot_S1024x4096_S4096x1024_S1024x1024_1_0_0_1_n_n_wf : DotDims.WF S1024x4096 S4096x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x64x4096 : Shape := ⟨3, ![16, 64, 4096]⟩
abbrev S8192x16x64 : Shape := ⟨3, ![8192, 16, 64]⟩
abbrev S_ : Shape := ⟨0, ![]⟩
abbrev S8192x16 : Shape := ⟨2, ![8192, 16]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x64x4096, .f32⟩
  | .hbm, ⟨2, _⟩ => ⟨S8192x16x64, .f32⟩
  | .hbm, ⟨3, _⟩ => ⟨S8192x16x64, .f32⟩
  | .hbm, ⟨4, _⟩ => ⟨S_, .f32⟩
  | .hbm, ⟨5, _⟩ => ⟨S8192x16, .f32⟩
  | .hbm, ⟨6, _⟩ => ⟨S8192x16, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x16x64_S8192x16_d2 : S8192x16x64.ReducesTo [2] S8192x16
  h_S_ : 0 < S_.numel
  dot_S8192x4096_S16x64x4096_S8192x16x64_1_2_0_01_n_n_wf : DotDims.WF S8192x4096 S16x64x4096 S8192x16x64 [1] [2] [0] [0, 1] [] []

variable [Facts₀]

def dot_S8192x4096_S16x64x4096_S8192x16x64_1_2_0_01_n_n : DotDims S8192x4096 S16x64x4096 S8192x16x64 where
  lhsContracting := [1]
  rhsContracting := [2]
  lhsNonContracting := [0]
  rhsNonContracting := [0, 1]
  lhsBatch := []
  rhsBatch := []
  wf := dot_S8192x4096_S16x64x4096_S8192x16x64_1_2_0_01_n_n_wf

class Facts : Prop extends Facts₀ where

variable [Facts]
-- ==== Proof.Spec.lean ====
/-
  The router scores, as mathematics over the extended reals.

  For a batch row b, an expert e and a rank index k, the projection is the inner product of row b of x with
  direction (e, k) of the weights; the score of (b, e) is the square root of the sum over k of the squared
  projections.

  The kernel reaches the same number another way: it lays the sixty-four directions of the sixteen experts side by
  side as 1024 columns (column j is direction (j / 64, j % 64)), squares the 1024 projections of a row, and
  multiplies by a 0/1 grouping matrix whose column e selects the columns 64e … 64e+63 (and whose further columns,
  up to 128, are zero).  A sum over the 1024 columns weighted by column e of the grouping matrix is the sum over
  the sixty-four columns of group e: the other terms are products with zero, which vanish for every extended real.
-/
import Idealize.ShloMosaic.PureOps.Ideal
import Idealize.ShloMosaic.PureOps.Ideal.Laws
import Idealize.ShloMosaic.Lib.ValueIdx
import Mathlib.Algebra.BigOperators.Fin

noncomputable section

open Idealize.ShloMosaic Idealize.ShloMosaic.ValueIdx
open scoped BigOperators

namespace Cert.Hand.Router

/-- The activations, [8192, 4096]. -/
abbrev SX : Shape := ⟨2, ![8192, 4096]⟩
/-- The weights, [16, 64, 4096]. -/
abbrev SW : Shape := ⟨3, ![16, 64, 4096]⟩
/-- The scores, [8192, 16]. -/
abbrev SO : Shape := ⟨2, ![8192, 16]⟩
/-- The weights laid out as columns, [4096, 1024]. -/
abbrev SB : Shape := ⟨2, ![4096, 1024]⟩
/-- The grouping matrix, [1024, 128]. -/
abbrev SG : Shape := ⟨2, ![1024, 128]⟩
/-- The padded scores, [8192, 128]. -/
abbrev SP : Shape := ⟨2, ![8192, 128]⟩

/-- The projection of row `b` of `x` on direction `(e, k)`. -/
def proj (x : SX.Idx → EReal) (w : SW.Idx → EReal) (b : Fin 8192) (e : Fin 16) (k : Fin 64) : EReal :=
  ∑ d : Fin 4096, x (ix2 b d) * w (ix3 e k d)

/-- The score of `(b, e)`: the norm of the sixty-four projections. -/
def score (x : SX.Idx → EReal) (w : SW.Idx → EReal) (b : Fin 8192) (e : Fin 16) : EReal :=
  Ideal.sqrt (∑ k : Fin 64, proj x w b e k * proj x w b e k)

/-- The scores as an array. -/
def scores (x : SX.Idx → EReal) (w : SW.Idx → EReal) : SO.Idx → EReal := fun i => score x w (i 0) (i 1)

theorem scores_apply (x : SX.Idx → EReal) (w : SW.Idx → EReal) (b : Fin 8192) (e : Fin 16) :
    scores x w (ix2 b e) = score x w b e := rfl

/-- Row `b` of `x` against column `j` of the laid-out weights. -/
def col (x : SX.Idx → EReal) (wt : SB.Idx → EReal) (b : Fin 8192) (j : Fin 1024) : EReal :=
  ∑ d : Fin 4096, x (ix2 b d) * wt (ix2 d j)

/-- The kernel's number at `(b, e)`, `e` one of 128 columns: the squared column products weighted by column `e` of
    the grouping matrix, summed, under the square root. -/
def paddedAt (x : SX.Idx → EReal) (wt : SB.Idx → EReal) (gm : SG.Idx → EReal) (b : Fin 8192) (e : Fin 128) : EReal :=
  Ideal.sqrt (∑ j : Fin 1024, (col x wt b j * col x wt b j) * gm (ix2 j e))

/-- The same as an array. -/
def padded (x : SX.Idx → EReal) (wt : SB.Idx → EReal) (gm : SG.Idx → EReal) : SP.Idx → EReal :=
  fun i => paddedAt x wt gm (i 0) (i 1)

theorem padded_apply (x : SX.Idx → EReal) (wt : SB.Idx → EReal) (gm : SG.Idx → EReal) (b : Fin 8192) (e : Fin 128) :
    padded x wt gm (ix2 b e) = paddedAt x wt gm b e := rfl

/-- A sum over 1024 columns weighted by the indicator of group `e` is the sum over the group's 64 columns. -/
theorem sum_group (f g : Fin 1024 → EReal) (e : Fin 16)
    (hg : ∀ j : Fin 1024, g j = if j.val / 64 = e.val then 1 else 0) :
    ∑ j : Fin 1024, f j * g j = ∑ k : Fin 64, f ⟨k.val + 64 * e.val, by omega⟩ := by
  rw [← Equiv.sum_comp (finProdFinEquiv : Fin 16 × Fin 64 ≃ Fin 1024) (fun j => f j * g j), Fintype.sum_prod_type]
  rw [Finset.sum_eq_single e]
  · refine Finset.sum_congr rfl fun k _ => ?_
    have hv : ((finProdFinEquiv : Fin 16 × Fin 64 ≃ Fin 1024) (e, k)).val = k.val + 64 * e.val := rfl
    rw [hg, if_pos (by rw [hv]; omega), mul_one]
    exact congrArg f (Fin.ext hv)
  · intro a _ hae
    refine Finset.sum_eq_zero fun k _ => ?_
    have hv : ((finProdFinEquiv : Fin 16 × Fin 64 ≃ Fin 1024) (a, k)).val = k.val + 64 * a.val := rfl
    rw [hg, if_neg (by rw [hv]; intro h; exact hae (Fin.ext (by omega))), mul_zero]
  · intro h; exact absurd (Finset.mem_univ e) h

/-- With the weights laid out as columns (column `j` is direction `(j / 64, j % 64)`) and the grouping matrix the
    indicator of "row `j` is in group `e`, and `e` is one of the sixteen groups", the kernel's number at a column
    below sixteen is the score. -/
theorem paddedAt_eq_score (x : SX.Idx → EReal) (w : SW.Idx → EReal) (wt : SB.Idx → EReal) (gm : SG.Idx → EReal)
    (hwt : ∀ (d : Fin 4096) (j : Fin 1024), wt (ix2 d j) = w (ix3 ⟨j.val / 64, by omega⟩ ⟨j.val % 64, by omega⟩ d))
    (hgm : ∀ (j : Fin 1024) (e : Fin 128), gm (ix2 j e) = if e.val < 16 ∧ j.val / 64 = e.val then 1 else 0)
    (b : Fin 8192) (e : Fin 16) : paddedAt x wt gm b ⟨e.val, by omega⟩ = score x w b e := by
  unfold paddedAt score
  refine congrArg Ideal.sqrt ?_
  rw [sum_group (fun j => col x wt b j * col x wt b j) (fun j => gm (ix2 j ⟨e.val, by omega⟩)) e (fun j => by
    rw [hgm]
    have he : e.val < 16 := e.isLt
    by_cases h : j.val / 64 = e.val
    · rw [if_pos ⟨he, h⟩, if_pos h]
    · rw [if_neg (fun hh => h hh.2), if_neg h])]
  refine Finset.sum_congr rfl fun k _ => ?_
  have hc : col x wt b ⟨k.val + 64 * e.val, by omega⟩ = proj x w b e k := by
    unfold col proj
    refine Finset.sum_congr rfl fun d _ => ?_
    rw [hwt]
    refine congrArg (x (ix2 b d) * w ·) ?_
    have h1 : (⟨(k.val + 64 * e.val) / 64, by omega⟩ : Fin 16) = e := Fin.ext (by show (k.val + 64 * e.val) / 64 = e.val; omega)
    have h2 : (⟨(k.val + 64 * e.val) % 64, by omega⟩ : Fin 64) = k := Fin.ext (by show (k.val + 64 * e.val) % 64 = k.val; omega)
    show ix3 (⟨(k.val + 64 * e.val) / 64, _⟩ : Fin 16) (⟨(k.val + 64 * e.val) % 64, _⟩ : Fin 64) d = ix3 e k d
    rw [h1, h2]
  show col x wt b ⟨k.val + 64 * e.val, _⟩ * col x wt b ⟨k.val + 64 * e.val, _⟩ = _
  rw [hc]

end Cert.Hand.Router

end
-- ==== Proof.RefSide.lean ====
/-
  The reference read at an index.  Its result at (b, e) is the square root of zero plus the sum over the rank
  index k of the squared contraction of row b of x with direction (e, k) of the weights: the score.
-/
import proofs.«146577_j48352741818881_2_alg».proof.Proof.Gen.ReferenceIdeal.Run
import proofs.«146577_j48352741818881_2_alg».proof.Proof.Gen.ReferenceIdeal.Read
import proofs.«146577_j48352741818881_2_alg».proof.Proof.Spec

noncomputable section

open Idealize.ShloMosaic Idealize.ShloMosaic.ValueIdx
open scoped BigOperators

namespace Cert.ReferenceIdeal.RefValue

open Cert.ReferenceIdeal Cert.ReferenceIdeal.Read Cert.Hand.Router

/-- The reference's last stage at `(b, e)` is the score. -/
theorem val_main_v3_ix (x0 : S8192x4096.Idx → EReal) (x1 : S16x64x4096.Idx → EReal) (b : Fin 8192) (e : Fin 16) :
    val_main_v3 (F := Ideal) x0 x1 (ix2 b e) = score x0 x1 b e := by
  rw [val_main_v3_apply, val_main_v2_apply, val_main_cst_apply]
  simp only [val_main_v1_apply, val_main_v0_apply]
  rw [Ideal.hostUnary_sqrt_def]
  show Ideal.sqrt (Ideal.ofBits .f32 0x00000000#32 + _) = _
  rw [Ideal.ofBits_zero_f32, zero_add]
  unfold score proj
  refine congrArg Ideal.sqrt (Finset.sum_congr rfl fun k _ => ?_)
  have el : ∀ d : Fin 4096, lidx_main_v0 (idx_main_v2 (ix2 b e) k) d = ix2 b d := fun d =>
    funext fun a => Fin.ext (by match a with | ⟨0, _⟩ => rfl | ⟨1, _⟩ => rfl)
  have er : ∀ d : Fin 4096, ridx_main_v0 (idx_main_v2 (ix2 b e) k) d = ix3 e k d := fun d =>
    funext fun a => Fin.ext (by match a with | ⟨0, _⟩ => rfl | ⟨1, _⟩ => rfl | ⟨2, _⟩ => rfl)
  simp only [el, er]
  rfl

/-- The reference's result array is the scores. -/
theorem val_main_v3_eq_scores (x0 : S8192x4096.Idx → EReal) (x1 : S16x64x4096.Idx → EReal) :
    val_main_v3 (F := Ideal) x0 x1 = scores x0 x1 := by
  funext i
  obtain ⟨b, e, rfl⟩ : ∃ (b : Fin 8192) (e : Fin 16), i = ix2 b e := ⟨i 0, i 1, eq_ix2 i⟩
  rw [val_main_v3_ix, scores_apply]

end Cert.ReferenceIdeal.RefValue

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Payload.lean ====
/-
  The kernel body's stored value read at an entry.  The body multiplies the row block [1024, 4096] by the laid-out
  weights [4096, 1024] (a sum over the 4096 coordinates, from a zero accumulator), squares entry by entry,
  multiplies by the grouping matrix [1024, 128] (a sum over the 1024 columns, from a zero accumulator) and takes
  the square root; the changes of float format are the identity on extended reals.
-/
import proofs.«146577_j48352741818881_2_alg».proof.Proof.Gen.KernelIdeal.Skeleton
import proofs.«146577_j48352741818881_2_alg».proof.Proof.LibDotRows
import Idealize.ShloMosaic.PureOps.Ideal.Laws
import Idealize.ShloMosaic.Lib.Pipeline.Value
import Idealize.ShloMosaic.Lib.ValueIdx

noncomputable section

open Idealize.ShloMosaic Idealize.ShloMosaic.ValueIdx
open scoped BigOperators
open Cert.KernelIdeal Cert.KernelIdeal.Gen Cert.KernelIdeal.Facts₀

namespace Cert.KernelIdeal.Body

/-- The first product at `(p, q)`: row `p` of the left operand against column `q` of the right. -/
theorem mm1_apply (l : FVec Ideal S1024x4096 .bf16) (r : FVec Ideal S4096x1024 .bf16) (p : Fin 1024) (q : Fin 1024) :
    matmul dot_S1024x4096_S4096x1024_S1024x1024_1_0_0_1_n_n none l r (constant S1024x1024 .f32 0x00000000#32) (ix2 p q)
      = ∑ k : Fin 4096, l (ix2 p k) * r (ix2 k q) := by
  refine (Ideal.matmul_constant_zero_apply _ none l r (ix2 p q)).trans ?_
  dot_rows dot_S1024x4096_S4096x1024_S1024x1024_1_0_0_1_n_n S1024x4096 S4096x1024 4096

/-- The second product at `(p, q)`. -/
theorem mm2_apply (l : FVec Ideal S1024x1024 .f32) (r : FVec Ideal S1024x128 .f32) (p : Fin 1024) (q : Fin 128) :
    matmul dot_S1024x1024_S1024x128_S1024x128_1_0_0_1_n_n none l r (constant S1024x128 .f32 0x00000000#32) (ix2 p q)
      = ∑ k : Fin 1024, l (ix2 p k) * r (ix2 k q) := by
  refine (Ideal.matmul_constant_zero_apply _ none l r (ix2 p q)).trans ?_
  dot_rows dot_S1024x1024_S1024x128_S1024x128_1_0_0_1_n_n S1024x1024 S1024x128 1024

/-- The stored value at row `p`, column `q` of the block. -/
theorem pay_apply (x0 : FVec Ideal S1024x4096 .f32) (x1 : FVec Ideal S4096x1024 .bf16) (x2 : FVec Ideal S1024x128 .f32)
    (p : Fin 1024) (q : Fin 128) :
    k0_pay1 (F := Ideal) x0 x1 x2 (ix2 p q)
      = Ideal.sqrt (∑ j : Fin 1024, ((∑ d : Fin 4096, x0 (ix2 p d) * x1 (ix2 d j)) * (∑ d : Fin 4096, x0 (ix2 p d) * x1 (ix2 d j)))
          * x2 (ix2 j q)) := by
  unfold k0_pay1
  rw [shapeCast_self, shapeCast_self]
  show Ideal.sqrt (matmul dot_S1024x1024_S1024x128_S1024x128_1_0_0_1_n_n none _ x2 (constant S1024x128 .f32 0x00000000#32) (ix2 p q)) = _
  refine congrArg Ideal.sqrt ?_
  refine (mm2_apply _ x2 p q).trans ?_
  refine Finset.sum_congr rfl fun j _ => ?_
  refine congrArg (· * x2 (ix2 j q)) ?_
  show matmul dot_S1024x4096_S4096x1024_S1024x1024_1_0_0_1_n_n none _ x1 (constant S1024x1024 .f32 0x00000000#32) (ix2 p j)
      * matmul dot_S1024x4096_S4096x1024_S1024x1024_1_0_0_1_n_n none _ x1 (constant S1024x1024 .f32 0x00000000#32) (ix2 p j) = _
  rw [mm1_apply]
  rfl

end Cert.KernelIdeal.Body

end
-- ==== Proof.KernelValue.lean ====
/-
  From blocks to the array.  Grid point t handles the 1024 rows 1024·t … 1024·t + 1023: window 0's block is those
  rows of x, windows 1 and 2 hold the whole laid-out weights and the whole grouping matrix at every point, and what
  the body stores in window 3's block is, row by row, the padded scores of those rows.  The eight blocks tile the
  8192 rows, so the output array ends holding the padded scores of every row.
-/
import proofs.«146577_j48352741818881_2_alg».proof.Proof.Gen.KernelIdeal.Frame
import proofs.«146577_j48352741818881_2_alg».proof.Proof.Payload
import proofs.«146577_j48352741818881_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open scoped BigOperators
open Cert.KernelIdeal Cert.KernelIdeal.Gen Cert.Hand.Router

namespace Cert.KernelIdeal.KValue

variable (m : (ℓ : Loc nD τ sig) → Buf (Elt Ideal) ℓ)

theorem hz : (![0, 0] : Fin 2 → Nat) = fun _ => 0 := funext fun a => by fin_cases a <;> rfl

/-- The block indices at point `t`: windows 0 and 3 are at row block `t`, windows 1 and 2 at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt8 (t : Fin cfg0.N) : t.val < 8 := lt_of_lt_of_eq t.isLt N_0

/-- The body's stored value on blocks that are rows `1024·tv …` of `X`, the whole of `WT` and the whole of `GM`, at a
    block entry `y` lying under the array entry `I`, is the padded score at `I`. -/
theorem pay_eq_padded (X : SX.Idx → EReal) (WT : SB.Idx → EReal) (GM : SG.Idx → EReal)
    (x0 : FVec Ideal S1024x4096 .f32) (x1 : FVec Ideal S4096x1024 .bf16) (x2 : FVec Ideal S1024x128 .f32) (tv : Nat)
    (h0 : ∀ (r : Fin 1024) (d : Fin 4096) (b : Fin 8192), b.val = tv * 1024 + r.val → x0 (ix2 r d) = X (ix2 b d))
    (h1 : ∀ (d : Fin 4096) (j : Fin 1024), x1 (ix2 d j) = WT (ix2 d j))
    (h2 : ∀ (j : Fin 1024) (e : Fin 128), x2 (ix2 j e) = GM (ix2 j e))
    (y : S1024x128.Idx) (I : S8192x128.Idx) (hI0 : (I 0).val = tv * 1024 + (y 0).val) (hI1 : (I 1).val = (y 1).val) :
    k0_pay1 (F := Ideal) x0 x1 x2 y = padded X WT GM I := by
  obtain ⟨r, e, rfl⟩ : ∃ (r : Fin 1024) (e : Fin 128), y = ix2 r e := ⟨y 0, y 1, eq_ix2 y⟩
  obtain ⟨b, e', rfl⟩ : ∃ (b : Fin 8192) (e' : Fin 128), I = ix2 b e' := ⟨I 0, I 1, eq_ix2 I⟩
  have hb : b.val = tv * 1024 + r.val := hI0
  obtain rfl : e' = e := Fin.ext hI1
  rw [Body.pay_apply, padded_apply]
  unfold paddedAt col
  refine congrArg Ideal.sqrt (Finset.sum_congr rfl fun j _ => ?_)
  rw [h2]
  refine congrArg (· * GM (ix2 j e')) ?_
  have hs : (∑ d : Fin 4096, x0 (ix2 r d) * x1 (ix2 d j)) = ∑ d : Fin 4096, X (ix2 b d) * WT (ix2 d j) :=
    Finset.sum_congr rfl fun d _ => by rw [h0 r d b hb, h1]
  rw [hs]

/-- Window 0's block at point `t`, entry `(r, d)`, is `x` at row `1024·t + r`. -/
theorem iblk0_apply (c : Dev nD) (t : Fin cfg0.N) (r : Fin 1024) (d : Fin 4096) (b : Fin 8192) (hb : b.val = t.val * 1024 + r.val) :
    iblk m c 0 t (ix2 r d) = (V m c main_arg0 : S8192x4096.Idx → EReal) (ix2 b d) := by
  obtain ⟨e0, e1, -⟩ := idx_facts t
  show V m c main_arg0 (((cfg0.win 0).blk t).view.emb (ix2 r d)) = V m c main_arg0 (ix2 b d)
  refine congrArg (V m c main_arg0) (funext fun a => Fin.ext ?_)
  match a with
  | ⟨0, _⟩ => show win0_0.index t (0 : Fin 2) * 1024 + 1 * r.val = b.val; omega
  | ⟨1, _⟩ => show win0_0.index t (1 : Fin 2) * 4096 + 1 * d.val = d.val; omega

/-- Window 1's block at every point is the whole array. -/
theorem iblk1_apply (c : Dev nD) (t : Fin cfg0.N) (d : Fin 4096) (j : Fin 1024) :
    iblk m c 1 t (ix2 d j) = (V m c main_v2 : S4096x1024.Idx → EReal) (ix2 d j) := by
  obtain ⟨-, -, e2, e3, -⟩ := idx_facts t
  show V m c main_v2 (((cfg0.win 1).blk t).view.emb (ix2 d j)) = V m c main_v2 (ix2 d j)
  refine congrArg (V m c main_v2) (funext fun a => Fin.ext ?_)
  match a with
  | ⟨0, _⟩ => show win0_1.index t (0 : Fin 2) * 4096 + 1 * d.val = d.val; omega
  | ⟨1, _⟩ => show win0_1.index t (1 : Fin 2) * 1024 + 1 * j.val = j.val; omega

/-- Window 2's block at every point is the whole array. -/
theorem iblk2_apply (c : Dev nD) (t : Fin cfg0.N) (j : Fin 1024) (e : Fin 128) :
    iblk m c 2 t (ix2 j e) = (V m c main_v6 : S1024x128.Idx → EReal) (ix2 j e) := by
  obtain ⟨-, -, -, -, e4, e5, -⟩ := idx_facts t
  show V m c main_v6 (((cfg0.win 2).blk t).view.emb (ix2 j e)) = V m c main_v6 (ix2 j e)
  refine congrArg (V m c main_v6) (funext fun a => Fin.ext ?_)
  match a with
  | ⟨0, _⟩ => show win0_2.index t (0 : Fin 2) * 1024 + 1 * j.val = j.val; omega
  | ⟨1, _⟩ => show win0_2.index t (1 : Fin 2) * 128 + 1 * e.val = e.val; omega

/-- What point `t` writes back is block `t` of the padded scores of the arrays as the region finds them. -/
theorem flushed3_eq (c : Dev nD) (t : Fin cfg0.N) :
    (dats m 0 c).flushed 3 t = ((cfg0.win 3).blk t).view.read (Elt Ideal)
      (padded (V m c main_arg0) (V m c main_v2) (V m c main_v6)) := by
  show (cfg0.win 3).cut (grid0.coords t) ((dats m 0 c).after 3 t) = _
  rw [after0_3]
  unfold out0_3
  rw [View.canon_unit_zero hz]
  simp only [View.ld_unit_zero (S := S1024x4096) hz, View.ld_unit_zero (S := S4096x1024) hz, View.ld_unit_zero (S := S1024x128) hz]
  obtain ⟨-, -, -, -, -, -, e6, e7⟩ := idx_facts t
  funext y
  show k0_pay1 (F := Ideal) (iblk m c 0 t) (iblk m c 1 t) (iblk m c 2 t) y
    = padded (V m c main_arg0) (V m c main_v2) (V m c main_v6) (((cfg0.win 3).blk t).view.emb y)
  refine pay_eq_padded (V m c main_arg0) (V m c main_v2) (V m c main_v6) (iblk m c 0 t) (iblk m c 1 t) (iblk m c 2 t) t.val
    (fun r d b hb => iblk0_apply m c t r d b hb) (fun d j => iblk1_apply m c t d j) (fun j e => iblk2_apply m c t j e)
    y (((cfg0.win 3).blk t).view.emb y) ?_ ?_
  · show win0_3.index t (0 : Fin 2) * 1024 + 1 * (y 0).val = t.val * 1024 + (y 0).val; omega
  · show win0_3.index t (1 : Fin 2) * 128 + 1 * (y 1).val = (y 1).val; omega

/-- An entry of the output array is in point `t`'s block iff each coordinate is in the block's range on its axis. -/
theorem mem_blk3 (t : Fin cfg0.N) (i : S8192x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v7).slice (win0_3.rect t)).set ↔ _
  rw [View.set_slice_whole, Rect.mem_set_unit]
  exact Iff.rfl

/-- Every entry of the output array lies in the block of the point its row falls in. -/
theorem cover3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The output array after the run: the padded scores of the arrays as the region finds them. -/
theorem final3 (c : Dev nD) :
    (dats m 0 c).arrAt 3 cfg0.N = padded (V m c main_arg0) (V m c main_v2) (V m c main_v6) :=
  (dats m 0 c).arrAt_eq_of_cover 3 _ (fun t _ => flushed3_eq m c t) cover3

end Cert.KernelIdeal.KValue

end
-- ==== Proof.HostWeights.lean ====
/-
  The weights as the region finds them in window 1's array: the host transposes [16, 64, 4096] to [4096, 16, 64],
  flattens the last two axes to 1024 columns and changes the float format (the identity on extended reals), so
  entry (d, j) is the weight of direction (j / 64, j % 64) at coordinate d.
-/
import proofs.«146577_j48352741818881_2_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx
open Cert.KernelIdeal Cert.KernelIdeal.Gen

namespace Cert.KernelIdeal.HostSide

/-- The host operations' term for window 1's array. -/
theorem V_main_v2_eq (m : (ℓ : Loc nD τ sig) → Buf (Elt Ideal) ℓ) (c : Dev nD) :
    (Gen.V m c main_v2 : S4096x1024.Idx → EReal)
      = truncf (F := Ideal) .bf16 (shapeCast S4096x1024 (transpose S4096x16x64 [2, 0, 1]
          (m ((c : Thread nD τ).loc main_arg1) : S16x64x4096.Idx → EReal) transposes_S16x64x4096_S4096x16x64_2_0_1)
          shapeCasts_S4096x16x64_S4096x1024) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(d, j)` of window 1's array is the weight of direction `(j / 64, j % 64)` at coordinate `d`. -/
theorem V_main_v2_apply (m : (ℓ : Loc nD τ sig) → Buf (Elt Ideal) ℓ) (c : Dev nD) (d : Fin 4096) (j : Fin 1024) :
    (Gen.V m c main_v2 : S4096x1024.Idx → EReal) (ix2 d j)
      = (m ((c : Thread nD τ).loc main_arg1) : S16x64x4096.Idx → EReal) (ix3 (⟨j.val / 64, by omega⟩ : Fin 16) (⟨j.val % 64, by omega⟩ : Fin 64) d) := by
  rw [V_main_v2_eq]
  generalize (m ((c : Thread nD τ).loc main_arg1) : S16x64x4096.Idx → EReal) = w
  show shapeCast S4096x1024 (transpose S4096x16x64 [2, 0, 1] w transposes_S16x64x4096_S4096x16x64_2_0_1)
      shapeCasts_S4096x16x64_S4096x1024 (ix2 d j) = _
  refine (shapeCast_apply _ shapeCasts_S4096x16x64_S4096x1024 (ix2 d j)
    (ix3 d (⟨j.val / 64, by omega⟩ : Fin 16) (⟨j.val % 64, by omega⟩ : Fin 64)) ?_).trans ?_
  · rw [Shape.rowMajor_val_three, Shape.rowMajor_val_two]
    show (d.val * 16 + j.val / 64) * 64 + j.val % 64 = d.val * 1024 + j.val
    omega
  · refine transpose_apply [2, 0, 1] w transposes_S16x64x4096_S4096x16x64_2_0_1 _
      (ix3 (⟨j.val / 64, by omega⟩ : Fin 16) (⟨j.val % 64, by omega⟩ : Fin 64) d) fun b => ?_
    match b with
    | ⟨0, _⟩ => rfl
    | ⟨1, _⟩ => rfl
    | ⟨2, _⟩ => rfl

end Cert.KernelIdeal.HostSide

end
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.HostGroup.lean ====
/-
  The grouping matrix on the host side.

  Before the region is entered the host program builds, from nothing but constants, a 1024 × 128 matrix of floats: it
  numbers the rows 0 … 1023, takes the floor of each row number divided by 64 (a floor division of signed 32-bit words:
  the quotient rounded toward zero, lowered by one where the signs of dividend and divisor differ and the remainder is
  not zero), compares the result with each of the column numbers 0 … 15, converts the comparison bits to floats, and
  widens the 1024 × 16 result to 128 columns with zeros. Read in the extended reals this is the matrix whose entry (j, e)
  is one when e < 16 and j / 64 = e, and zero otherwise.

  The row numbers are not negative, so they have the divisor's sign unless they are zero, and zero leaves no remainder:
  the quotient is never lowered, and the truncated quotient of two numbers that are not negative is the floor of the
  quotient of the naturals. This is one statement about the 1024 words 0 … 1023, and it is proved by evaluating both sides
  at each of them. Two words of numbers below 2^31 are equal only if the numbers are, so the comparison bit is the
  equality of j / 64 and e. The widening reads the one-hot matrix in the first sixteen columns and the fill value, the
  float of the zero word, in the other 112.
-/
import proofs.«146577_j48352741818881_2_alg».proof.Proof.Gen.KernelIdeal.Frame
import proofs.«146577_j48352741818881_2_alg».proof.Proof.LibWords
import Idealize.ShloMosaic.Lib.StableHlo.Run
import Idealize.ShloMosaic.Lib.Pipeline.Value
import Idealize.ShloMosaic.Lib.ValueIdx
import Idealize.ShloMosaic.Lib.KernelVsHost
import Idealize.ShloMosaic.Lib.IdealHost

noncomputable section
open Idealize.ShloMosaic Idealize.ShloMosaic.TcCoe Idealize.SL.Sem Idealize.ShloMosaic.StableHlo
open Cert.KernelIdeal Cert.KernelIdeal.Gen

namespace Cert.KernelIdeal.HostSide.Group

/-- The sign of a 32-bit word as a word: zero for zero, minus one when the sign bit is set, one otherwise. -/
def sgn (x : BitVec 32) : BitVec 32 := if x = 0 then 0 else if x.msb then -1 else 1

/-- The host's floor division of a signed word by 64: the quotient rounded toward zero, lowered by one exactly where the
    operands' signs differ and the remainder is not zero. -/
def floorDiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- On the words of the numbers below 1024 it is the floor of the quotient of the naturals. A number that is not negative
    has the divisor's sign unless it is zero, and zero leaves no remainder, so the quotient is never lowered; it is the
    truncated quotient of two numbers that are not negative. Checked on each of the 1024 words by evaluation. -/
theorem floorDiv64_ofNat (j : Fin 1024) : floorDiv64 (BitVec.ofNat 32 j.val) = BitVec.ofNat 32 (j.val / 64) := by
  revert j; decide +kernel

/-- The vector of row groups: the host's floor division of the row numbers 0 … 1023 by 64. -/
def grp : IVec S1024 32 :=
  select
    (andi
      (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

/-- Row j's group is the word of j / 64. -/
theorem grp_apply (j : Fin 1024) : grp (ValueIdx.ix1 j) = BitVec.ofNat 32 (j.val / 64) :=
  floorDiv64_ofNat j

/-- The one-hot matrix of the groups: entry (j, e) converts the bit "row j's group is e" to a float. -/
def oneHot : FVec Ideal S1024x16 .f32 :=
  uitofp (F := Ideal) .f32 (cmpi .eq
    (broadcastInDim S1024x16 ![0, 1] bcast_S1024x1_S1024x16_0_1 (broadcastInDim S1024x1 ![0] bcast_S1024_S1024x1_0 grp))
    (broadcastInDim S1024x16 ![0, 1] bcast_S1x16_S1024x16_0_1 (iotaInDim S1x16 32 1)))

/-- The bit "the words of n and k are equal", read as a real, is one when n = k and zero otherwise (n, k below 2^31). -/
theorem eqBit (n k : Nat) (hn : n < 2 ^ 31) (hk : k < 2 ^ 31) :
    (((IntOp.cmpi .eq (BitVec.ofNat 32 n) (BitVec.ofNat 32 k)).toNat : ℝ) : EReal) = if n = k then 1 else 0 := by
  by_cases h : n = k
  · subst h
    rw [if_pos rfl]
    show ((((BitVec.ofBool (BitVec.ofNat 32 n == BitVec.ofNat 32 n)).toNat : ℕ) : ℝ) : EReal) = 1
    rw [beq_self_eq_true]
    simp
  · rw [if_neg h]
    have hb : (BitVec.ofNat 32 n == BitVec.ofNat 32 k) = false := beq_false_of_ne (Cert.Lib.Words.ofNat_ne n k hn hk h)
    show ((((BitVec.ofBool (BitVec.ofNat 32 n == BitVec.ofNat 32 k)).toNat : ℕ) : ℝ) : EReal) = 0
    rw [hb]
    simp

/-- Entry (j, e) of the one-hot matrix is one when j / 64 = e and zero otherwise. -/
theorem oneHot_apply (j : Fin 1024) (e : Fin 16) :
    oneHot (ValueIdx.ix2 j e) = if j.val / 64 = e.val then (1 : EReal) else 0 := by
  have h1 : broadcastInDim S1024x16 ![0, 1] bcast_S1024x1_S1024x16_0_1
      (broadcastInDim S1024x1 ![0] bcast_S1024_S1024x1_0 grp) (ValueIdx.ix2 j e) = BitVec.ofNat 32 (j.val / 64) := by
    rw [broadcastInDim_apply _ _ _ (ValueIdx.ix2 j e) (ValueIdx.ix2 j (0 : Fin 1))
          (fun a => match a with | ⟨0, _⟩ => rfl | ⟨1, _⟩ => rfl),
        broadcastInDim_apply _ _ _ (ValueIdx.ix2 j (0 : Fin 1)) (ValueIdx.ix1 j) (fun a => match a with | ⟨0, _⟩ => rfl)]
    exact grp_apply j
  have h2 : broadcastInDim S1024x16 ![0, 1] bcast_S1x16_S1024x16_0_1 (iotaInDim S1x16 32 1) (ValueIdx.ix2 j e)
      = BitVec.ofNat 32 e.val := by
    rw [broadcastInDim_apply _ _ _ (ValueIdx.ix2 j e) (ValueIdx.ix2 (0 : Fin 1) e)
          (fun a => match a with | ⟨0, _⟩ => rfl | ⟨1, _⟩ => rfl)]
    rfl
  show (((IntOp.cmpi .eq
      (broadcastInDim S1024x16 ![0, 1] bcast_S1024x1_S1024x16_0_1
        (broadcastInDim S1024x1 ![0] bcast_S1024_S1024x1_0 grp) (ValueIdx.ix2 j e))
      (broadcastInDim S1024x16 ![0, 1] bcast_S1x16_S1024x16_0_1 (iotaInDim S1x16 32 1) (ValueIdx.ix2 j e))).toNat : ℝ) : EReal) = _
  rw [h1, h2]
  exact eqBit (j.val / 64) e.val (by have := j.isLt; omega) (by have := e.isLt; omega)

/-- The one-hot matrix widened from 16 to 128 columns, the new columns filled with the float of the zero word. -/
def padded : FVec Ideal S1024x128 .f32 :=
  pad S1024x128 ![0, 0] ![0, 112] ![0, 0] oneHot (sitofp (F := Ideal) .f32 (constantI S_ 32 0#32))
    pads_S1024x16_S1024x128_000_01120 h_S_

/-- In the first sixteen columns the widened matrix is the one-hot matrix … -/
theorem padded_apply_lt (j : Fin 1024) (e : Fin 128) (he : e.val < 16) :
    padded (ValueIdx.ix2 j e) = oneHot (ValueIdx.ix2 j ⟨e.val, he⟩) :=
  pad_apply_of_inside _ _ _ oneHot _ pads_S1024x16_S1024x128_000_01120 h_S_ (ValueIdx.ix2 j e) (ValueIdx.ix2 j ⟨e.val, he⟩)
    (fun a => match a with
      | ⟨0, _⟩ => by show j.val = 0 + j.val * (0 + 1); omega
      | ⟨1, _⟩ => by show e.val = 0 + e.val * (0 + 1); omega)

/-- … and in the other 112 it is zero. -/
theorem padded_apply_ge (j : Fin 1024) (e : Fin 128) (he : ¬ e.val < 16) : padded (ValueIdx.ix2 j e) = 0 := by
  have hp := pad_apply_of_not_inside ![0, 0] ![0, 112] ![0, 0] oneHot (sitofp (F := Ideal) .f32 (constantI S_ 32 0#32))
    pads_S1024x16_S1024x128_000_01120 h_S_ (ValueIdx.ix2 j e) (1 : Fin 2)
    (by
      intro h
      have h3 : (e.val - 0) / (0 + 1) < 16 := h.2.2
      omega)
  show pad S1024x128 ![0, 0] ![0, 112] ![0, 0] oneHot (sitofp (F := Ideal) .f32 (constantI S_ 32 0#32))
    pads_S1024x16_S1024x128_000_01120 h_S_ (ValueIdx.ix2 j e) = 0
  rw [hp]
  show ((((0#32 : BitVec 32).toInt : ℝ)) : EReal) = 0
  simp

/-- Window 2's array when the region is entered is this widened one-hot matrix: the twenty-six host operations before the
    region that feed it, composed. -/
theorem V_main_v6_eq (m : (ℓ : Loc nD τ sig) → Buf (Elt Ideal) ℓ) (c : Dev nD) :
    (Gen.V m c main_v6 : S1024x128.Idx → EReal) = padded := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.HostSide.Group

namespace Cert.KernelIdeal.HostSide

open Group

/-- The grouping matrix the region finds in window 2's array: entry (j, e) is one when column e is one of the sixteen groups and row j lies in group e (rows 64e … 64e+63), zero otherwise (the 112 padding columns are zero). -/
theorem V_main_v6_apply (m : (ℓ : Loc nD τ sig) → Buf (Elt Ideal) ℓ) (c : Dev nD) (j : Fin 1024) (e : Fin 128) :
    (Gen.V m c main_v6 : S1024x128.Idx → EReal) (ValueIdx.ix2 j e) = if e.val < 16 ∧ j.val / 64 = e.val then (1 : EReal) else 0 := by
  rw [V_main_v6_eq m c]
  by_cases he : e.val < 16
  · rw [padded_apply_lt j e he, oneHot_apply j ⟨e.val, he⟩]
    by_cases hje : j.val / 64 = e.val
    · rw [if_pos hje, if_pos ⟨he, hje⟩]
    · rw [if_neg hje, if_neg (fun h => hje h.2)]
  · rw [padded_apply_ge j e he, if_neg (fun h => he h.1)]

end Cert.KernelIdeal.HostSide

end
-- ==== Proof.KernelRun.lean ====
/-
  The kernel program's run, read.  After the region the output array holds the padded scores (128 columns per row);
  the host's last operation keeps the first sixteen columns.  With the laid-out weights and the grouping matrix
  read at an entry, column e < 16 of the padded scores at row b is the score of (b, e): the 1024-term sum weighted
  by the grouping matrix's column e is the sum over the sixty-four directions of expert e.
-/
import proofs.«146577_j48352741818881_2_alg».proof.Proof.Gen.KernelIdeal.Frame
import proofs.«146577_j48352741818881_2_alg».proof.Proof.KernelValue
import proofs.«146577_j48352741818881_2_alg».proof.Proof.HostWeights
import proofs.«146577_j48352741818881_2_alg».proof.Proof.HostGroup
import proofs.«146577_j48352741818881_2_alg».proof.Proof.Spec
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx
open Cert.KernelIdeal Cert.KernelIdeal.Gen Cert.Hand.Router

namespace Cert.KernelIdeal.KRun

variable (m : (ℓ : Loc nD τ sig) → Buf (Elt Ideal) ℓ) (ρ : Dev nD → PrngReg)

/-- The output array after the region, at row `b` and a column `e` below sixteen, is the score of `(b, e)`. -/
theorem final3_apply (c : Dev nD) (b : Fin 8192) (e : Fin 16) :
    ((dats m 0 c).arrAt 3 cfg0.N : S8192x128.Idx → EReal) (ix2 b (⟨e.val, by omega⟩ : Fin 128))
      = score (m ((c : Thread nD τ).loc main_arg0)) (m ((c : Thread nD τ).loc main_arg1)) b e := by
  rw [KValue.final3, padded_apply, V_main_arg0]
  exact paddedAt_eq_score _ _ _ _ (fun d j => HostSide.V_main_v2_apply m c d j) (fun j e => HostSide.V_main_v6_apply m c j e) b e

/-- What the host's last operation leaves in the result buffer: the first sixteen columns of the output array. -/
theorem tail_eq (c : Dev nD) :
    Pipeline.afterTail₀ cfgs (dats m) 0 (V0 m) [hostOps1] c main_v8
      = extractStridedSlice S8192x16 ![0, 0] ((dats m 0 c).arrAt 3 cfg0.N : S8192x128.Idx → EReal) slices_S8192x128_S8192x16_0_0 := by
  unfold Pipeline.afterTail₀
  show StableHlo.after hostOps1 _ (Proc.devRef .tc main_v8) = _
  after_results
  exact congrArg (fun v => extractStridedSlice S8192x16 ![0, 0] v slices_S8192x128_S8192x16_0_0)
    (Pipeline.withArrays_arr spec0 launch0.win.arr_inj c _ _ 3)

/-- The result buffer ends holding the scores. -/
theorem result_eq (c : Dev nD) :
    Pipeline.afterTail₀ cfgs (dats m) 0 (V0 m) [hostOps1] c main_v8
      = scores (m ((c : Thread nD τ).loc main_arg0)) (m ((c : Thread nD τ).loc main_arg1)) := by
  rw [tail_eq]
  funext i
  obtain ⟨b, e, rfl⟩ : ∃ (b : Fin 8192) (e : Fin 16), i = ix2 b e := ⟨i 0, i 1, eq_ix2 i⟩
  rw [scores_apply, ← final3_apply m c b e]
  refine extractStridedSlice_apply ![0, 0] _ slices_S8192x128_S8192x16_0_0 (ix2 b e) (ix2 b (⟨e.val, by omega⟩ : Fin 128)) fun a => ?_
  match a with
  | ⟨0, _⟩ => show b.val = 0 + b.val; omega
  | ⟨1, _⟩ => show e.val = 0 + e.val; omega

/-- Every weakly fair execution of the idealized kernel program terminates with the result buffer at the scores of
    the argument arrays and the arguments unchanged. -/
theorem run : θ_run defs (onTc (τ := τ) (main (F := Ideal))) ⟨m, fun _ => 0, ρ⟩ fun r => ∀ c : Dev nD,
      r.2.mem ((c.tc : Thread nD τ).loc main_v8) = scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KRun

end
-- ==== Proof.lean ====
/-
  The router scores: for every batch row b and expert e, the norm over the sixty-four rank directions k of the
  inner product of row b of x with direction (e, k) of the weights.

  The reference computes it as written: one contraction over the 4096 coordinates, a square, a sum over k, a
  square root.  The kernel lays the 16 × 64 directions out as 1024 columns, multiplies each block of 1024 rows of x
  by them, squares, and sums each expert's sixty-four columns by a product with a 0/1 grouping matrix padded to 128
  columns; the host keeps the first sixteen columns.  Over the extended reals the products with the zeros of the
  grouping matrix vanish and those with its ones are the squares themselves, so the two results are equal entry by
  entry, for all extended-real inputs (the precondition is not used).

  The three frames are the programs' runs with the values dropped; nothing was rewritten between the kernel and its
  idealization, so that claim is trivial.
-/
import proofs.«146577_j48352741818881_2_alg».proof.Defs
import proofs.«146577_j48352741818881_2_alg».proof.Proof.Gen.Kernel
import proofs.«146577_j48352741818881_2_alg».proof.Proof.Gen.Kernel.Frame
import proofs.«146577_j48352741818881_2_alg».proof.Proof.Gen.KernelIdeal
import proofs.«146577_j48352741818881_2_alg».proof.Proof.Gen.KernelIdeal.Frame
import proofs.«146577_j48352741818881_2_alg».proof.Proof.Gen.ReferenceIdeal
import proofs.«146577_j48352741818881_2_alg».proof.Proof.Gen.ReferenceIdeal.Run
import proofs.«146577_j48352741818881_2_alg».proof.Proof.Gen.ReferenceIdeal.Read
import proofs.«146577_j48352741818881_2_alg».proof.Proof.Gen.Pre_finite_inputs
import proofs.«146577_j48352741818881_2_alg».proof.Proof.RefSide
import proofs.«146577_j48352741818881_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scores of the (agreeing) argument arrays in their result buffers. -/
theorem algebraic : Cert.algebraic_KernelIdeal_ReferenceIdeal := by
  intro m ρ m' ρ' _ hagree
  refine ⟨fun c => Cert.Hand.Router.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.val_main_v3_eq_scores, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
